-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x64 : Shape := ⟨3, ![4096, 128, 64]⟩
abbrev S4096x128x16 : Shape := ⟨3, ![4096, 128, 16]⟩
abbrev S_ : Shape := ⟨0, ![]⟩

class Facts : Prop where
  bcast_S_S4096x128x64 : S_.BroadcastsInDim S4096x128x64 (![] : Fin 0 → Fin S4096x128x64.rank)
  reducesTo_S4096x128x64_S_d0_1_2 : S4096x128x64.ReducesTo [0, 1, 2] S_
  h_S_ : 0 < S_.numel
  bcast_S_S4096x128x16 : S_.BroadcastsInDim S4096x128x16 (![] : Fin 0 → Fin S4096x128x16.rank)
  reducesTo_S4096x128x16_S_d0_1_2 : S4096x128x16.ReducesTo [0, 1, 2] S_

variable [Facts]

def fn {F : FTy → Type} [FloatOps F] (main_arg0 : FVec F S4096x128x64 .f32) (main_arg1 : FVec F S4096x128x16 .f32) : IVec S_ 1 :=
  let main_v0 : FVec F S4096x128x64 .f32 := Host.absf main_arg0
  let main_cst : FVec F S_ .f32 := constant S_ .f32 0x7F800000#32
  let main_v1 : FVec F S4096x128x64 .f32 := broadcastInDim S4096x128x64 ![] bcast_S_S4096x128x64 main_cst
  let main_v2 : IVec S4096x128x64 1 := cmpf .olt main_v0 main_v1
  let main_c : IVec S_ 1 := constantI S_ 1 1#1
  let main_v3 : IVec S_ 1 := (fun x v => Host.reduce IntOp.andi x v reducesTo_S4096x128x64_S_d0_1_2 h_S_) main_v2 main_c
  let main_v4 : FVec F S4096x128x16 .f32 := Host.absf main_arg1
  let main_cst_0 : FVec F S_ .f32 := constant S_ .f32 0x7F800000#32
  let main_v5 : FVec F S4096x128x16 .f32 := broadcastInDim S4096x128x16 ![] bcast_S_S4096x128x16 main_cst_0
  let main_v6 : IVec S4096x128x16 1 := cmpf .olt main_v4 main_v5
  let main_c_1 : IVec S_ 1 := constantI S_ 1 1#1
  let main_v7 : IVec S_ 1 := (fun x v => Host.reduce IntOp.andi x v reducesTo_S4096x128x16_S_d0_1_2 h_S_) main_v6 main_c_1
  let main_v8 : IVec S_ 1 := andi main_v3 main_v7
  main_v8
-- ==== Kernel.lean ====
abbrev S4096x128x64 : Shape := ⟨3, ![4096, 128, 64]⟩
abbrev S4096x128x16 : Shape := ⟨3, ![4096, 128, 16]⟩
abbrev S4096x16x64 : Shape := ⟨3, ![4096, 16, 64]⟩
abbrev S64x128x64 : Shape := ⟨3, ![64, 128, 64]⟩
abbrev S64x128x16 : Shape := ⟨3, ![64, 128, 16]⟩
abbrev S64x16x64 : Shape := ⟨3, ![64, 16, 64]⟩
abbrev S64x16 : Shape := ⟨2, ![64, 16]⟩
abbrev S64x16x1 : Shape := ⟨3, ![64, 16, 1]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x128x64, .f32⟩
  | .hbm, ⟨1, _⟩ => ⟨S4096x128x16, .f32⟩
  | .hbm, ⟨2, _⟩ => ⟨S4096x16x64, .f32⟩
  | .hbm, ⟨3, _⟩ => ⟨S4096x1024, .f32⟩
  | .local _ .vmem, ⟨0, _⟩ => ⟨S64x128x64, .f32⟩
  | .local _ .vmem, ⟨1, _⟩ => ⟨S64x128x64, .f32⟩
  | .local _ .vmem, ⟨2, _⟩ => ⟨S64x128x16, .f32⟩
  | .local _ .vmem, ⟨3, _⟩ => ⟨S64x128x16, .f32⟩
  | .local _ .vmem, ⟨4, _⟩ => ⟨S64x16x64, .f32⟩
  | .local _ .vmem, ⟨5, _⟩ => ⟨S64x16x64, .f32⟩
  | _, _ => ⟨S4096x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x128x16_S64x128x16_0_0_0 : ∀ a, (![0, 0, 0] : Fin 3 → Nat) a + S64x128x16.size a ≤ S64x128x16.size a
  h_S64x128x16 : 0 < S64x128x16.numel
  reduces_S64x128x16_S64x16 : S64x128x16.Reduces [1] S64x16
  inb_S64x128x64_S64x128x64_0_0_0 : ∀ a, (![0, 0, 0] : Fin 3 → Nat) a + S64x128x64.size a ≤ S64x128x64.size a
  h_S64x128x64 : 0 < S64x128x64.numel
  bitsLt_bf16_f32 : FTy.bits .bf16 < FTy.bits .f32
  shapeCasts_S64x16_S64x16x1 : S64x16.ShapeCasts S64x16x1
  broadcasts_S64x16x1_S64x16x64 : S64x16x1.Broadcasts S64x16x64
  inb_S64x16x64_S64x16x64_0_0_0 : ∀ a, (![0, 0, 0] : Fin 3 → Nat) a + S64x16x64.size a ≤ S64x16x64.size a
  h_S64x16x64 : 0 < S64x16x64.numel
  shapeCasts_S4096x16x64_S4096x1024 : S4096x16x64.ShapeCasts S4096x1024
  dot_S64x128x16_S64x128x64_S64x16x64_1_1_2_2_0_0_wf : DotDims.WF S64x128x16 S64x128x64 S64x16x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S4096x128x64.size a
  hwx0_0 : ∀ i : grid0.Coords, EltTy.bits .f32 = 32 ∨ (Rect.block (s := S4096x128x64) S64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x16.size a ≤ S4096x128x16.size a
  hwx0_1 : ∀ i : grid0.Coords, EltTy.bits .f32 = 32 ∨ (Rect.block (s := S4096x128x16) S64x128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16x64.size a ≤ S4096x16x64.size a
  hwx0_2 : ∀ i : grid0.Coords, EltTy.bits .f32 = 32 ∨ (Rect.block (s := S4096x16x64) S64x16x64.size (cc0_transform_2 i) (hinb0_2 i)).WholeWords (EltTy.packing .f32)

variable [Facts₀]

def dot_S64x128x16_S64x128x64_S64x16x64_1_1_2_2_0_0 : DotDims S64x128x16 S64x128x64 S64x16x64 where
  lhsContracting := [1]
  rhsContracting := [1]
  lhsNonContracting := [2]
  rhsNonContracting := [2]
  lhsBatch := [0]
  rhsBatch := [0]
  wf := dot_S64x128x16_S64x128x64_S64x16x64_1_1_2_2_0_0_wf

abbrev win0_0 : Pipeline.Window sig grid0 :=
  Pipeline.Window.ofSpec (Memref.whole main_arg0) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x16x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128x64 : Shape := ⟨3, ![4096, 128, 64]⟩
abbrev S4096x128x16 : Shape := ⟨3, ![4096, 128, 16]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S4096x1024 : Shape := ⟨2, ![4096, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x128x64, .f32⟩
  | .hbm, ⟨1, _⟩ => ⟨S4096x128x16, .f32⟩
  | .hbm, ⟨2, _⟩ => ⟨S4096x128x16, .f32⟩
  | .hbm, ⟨3, _⟩ => ⟨S4096x128x16, .f32⟩
  | .hbm, ⟨4, _⟩ => ⟨S4096x128x16, .f32⟩
  | .hbm, ⟨5, _⟩ => ⟨S4096x16x64, .f32⟩
  | .hbm, ⟨6, _⟩ => ⟨S_, .f32⟩
  | .hbm, ⟨7, _⟩ => ⟨S4096x16x64, .f32⟩
  | .hbm, ⟨8, _⟩ => ⟨S4096x16x64, .f32⟩
  | .hbm, ⟨9, _⟩ => ⟨S_, .f32⟩
  | .hbm, ⟨10, _⟩ => ⟨S4096x16, .f32⟩
  | .hbm, ⟨11, _⟩ => ⟨S_, .f32⟩
  | .hbm, ⟨12, _⟩ => ⟨S4096x16, .f32⟩
  | .hbm, ⟨13, _⟩ => ⟨S4096x16, .f32⟩
  | .hbm, ⟨14, _⟩ => ⟨S4096x16x1, .f32⟩
  | .hbm, ⟨15, _⟩ => ⟨S4096x16x64, .f32⟩
  | .hbm, ⟨16, _⟩ => ⟨S4096x16x64, .f32⟩
  | .hbm, ⟨17, _⟩ => ⟨S4096x1024, .f32⟩
  | _, _ => ⟨S4096x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S_S4096x16x64 : S_.BroadcastsInDim S4096x16x64 (![] : Fin 0 → Fin S4096x16x64.rank)
  reducesTo_S4096x128x16_S4096x16_d1 : S4096x128x16.ReducesTo [1] S4096x16
  h_S_ : 0 < S_.numel
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  bcast_S4096x16x1_S4096x16x64_0_1_2 : S4096x16x1.BroadcastsInDim S4096x16x64 (![0, 1, 2] : Fin 3 → Fin S4096x16x64.rank)
  shapeCasts_S4096x16x64_S4096x1024 : S4096x16x64.ShapeCasts S4096x1024
  dot_S4096x128x16_S4096x128x64_S4096x16x64_1_1_2_2_0_0_wf : DotDims.WF S4096x128x16 S4096x128x64 S4096x16x64 [1] [1] [2] [2] [0] [0]

variable [Facts₀]

def dot_S4096x128x16_S4096x128x64_S4096x16x64_1_1_2_2_0_0 : DotDims S4096x128x16 S4096x128x64 S4096x16x64 where
  lhsContracting := [1]
  rhsContracting := [1]
  lhsNonContracting := [2]
  rhsNonContracting := [2]
  lhsBatch := [0]
  rhsBatch := [0]
  wf := dot_S4096x128x16_S4096x128x64_S4096x16x64_1_1_2_2_0_0_wf

class Facts : Prop extends Facts₀ where

variable [Facts]
-- ==== Proof.Garnet.lean ====
/-
  The function both programs compute, with no program in sight.

  For a batch of `B` graphs, `fi` holds the vertex features (batch, vertex, feature) and `d` the distance of each of the
  128 vertices to each of the 16 aggregators (batch, vertex, aggregator). The weight of a distance is `exp (−x²)`. The
  entry (b, s, n) of the result is

      (∑ᵥ weight d[b,v,s]) / 128  ·  (∑ᵥ weight d[b,v,s] · fi[b,v,n]) / 128,

  the mean weight of aggregator `s` times the mean weighted feature `n`, every operation the exact one on the extended
  reals. The two sums run over the same 128 vertices in both programs, the divisor is the same literal on both sides and
  is never evaluated, and no distributive or cancelling step is taken, so nothing here needs the inputs to be finite.
-/
import Idealize.ShloMosaic.PureOps.Ideal
import Idealize.ShloMosaic.PureOps.Ideal.Laws
import Idealize.ShloMosaic.Lib.ValueIdx

noncomputable section

namespace Cert.Garnet

open Idealize.ShloMosaic Idealize.ShloMosaic.ValueIdx

/-- The weight of a distance: `exp (−x²)`. -/
def weight (x : EReal) : EReal := Ideal.exp (-(x * x))

/-- Subtracting a square from the zero word is negating it, on every extended real. -/
theorem exp_zero_sub (x : EReal) : Ideal.exp (Ideal.ofBits .f32 0x00000000#32 - x * x) = weight x := by
  rw [Ideal.ofBits_zero_f32, zero_sub]
  rfl

/-- The number of vertices as both programs spell it: the word of 128.0, kept as a word. -/
abbrev c128 : EReal := Ideal.ofBits .f32 0x43000000#32

/-- Entry (b, s, n) of the result for a batch of `B` graphs. -/
def garnetAt {B : Nat} (fi : (⟨3, ![B, 128, 64]⟩ : Shape).Idx → EReal) (d : (⟨3, ![B, 128, 16]⟩ : Shape).Idx → EReal)
    (b : Fin B) (s : Fin 16) (n : Fin 64) : EReal :=
  Ideal.div (∑ v : Fin 128, weight (d (ix3 b v s))) c128
    * Ideal.div (∑ v : Fin 128, weight (d (ix3 b v s)) * fi (ix3 b v n)) c128

/-- The whole result, index by index. -/
def garnet {B : Nat} (fi : (⟨3, ![B, 128, 64]⟩ : Shape).Idx → EReal) (d : (⟨3, ![B, 128, 16]⟩ : Shape).Idx → EReal) :
    (⟨3, ![B, 16, 64]⟩ : Shape).Idx → EReal :=
  fun i => garnetAt fi d (i 0) (i 1) (i 2)

/-- An entry reads only one batch row of each array: if row `b` of one pair of arrays is row `k` of another pair, the
    entries (b, s, n) and (k, s, n) agree. This is what lets a block of 64 graphs stand for its rows of the whole batch. -/
theorem garnetAt_congr {B B' : Nat}
    (fi : (⟨3, ![B, 128, 64]⟩ : Shape).Idx → EReal) (d : (⟨3, ![B, 128, 16]⟩ : Shape).Idx → EReal)
    (fi' : (⟨3, ![B', 128, 64]⟩ : Shape).Idx → EReal) (d' : (⟨3, ![B', 128, 16]⟩ : Shape).Idx → EReal)
    (b : Fin B) (k : Fin B')
    (hfi : ∀ (v : Fin 128) (n : Fin 64), fi (ix3 b v n) = fi' (ix3 k v n))
    (hd : ∀ (v : Fin 128) (s : Fin 16), d (ix3 b v s) = d' (ix3 k v s)) (s : Fin 16) (n : Fin 64) :
    garnetAt fi d b s n = garnetAt fi' d' k s n := by
  unfold garnetAt
  simp only [hfi, hd]

theorem garnet_ix3 {B : Nat} (fi : (⟨3, ![B, 128, 64]⟩ : Shape).Idx → EReal) (d : (⟨3, ![B, 128, 16]⟩ : Shape).Idx → EReal)
    (b : Fin B) (s : Fin 16) (n : Fin 64) : garnet fi d (ix3 b s n) = garnetAt fi d b s n := rfl

end Cert.Garnet

end
-- ==== Proof.RefGarnet.lean ====
/-
  The reference computes `garnet`.

  Its value before the final reshape is read one operation at a time: the product of two broadcasts-and-quotients. The left
  factor is the column of mean weights, broadcast along the feature axis, so at (b, s, n) it is the host's sum over the
  vertices of `exp (−d²)` at (b, v, s), started from the zero word, over 128. The right factor is the batched contraction
  over the vertex axis of the weights (b, v, s) with the features (b, v, n), over 128. Adding the zero word changes nothing.
-/
import proofs.«174832_j76690936037518_2_alg».proof.Proof.Gen.ReferenceIdeal.Read
import proofs.«174832_j76690936037518_2_alg».proof.Proof.Garnet

noncomputable section

namespace Cert.ReferenceIdeal.RefValue

open Cert.ReferenceIdeal Cert.ReferenceIdeal.Read Cert.Garnet Idealize.ShloMosaic Idealize.ShloMosaic.ValueIdx

/-- The vertex `v` of the weights the mean at (b, s) adds up. -/
theorem idx_mean (b : Fin 4096) (s : Fin 16) (n : Fin 64) (v : Fin 128) :
    idx_main_v6 (idx_main_v9 (idx_main_v10 (ix3 b s n))) v = ix3 b v s :=
  funext fun a => Fin.ext (by match a with | ⟨0, _⟩ => rfl | ⟨1, _⟩ => rfl | ⟨2, _⟩ => rfl)

/-- The contraction's left operand at vertex `v`. -/
theorem idx_left (b : Fin 4096) (s : Fin 16) (n : Fin 64) (v : Fin 128) :
    lidx_main_v3 (ix3 b s n) v = ix3 b v s :=
  funext fun a => Fin.ext (by match a with | ⟨0, _⟩ => rfl | ⟨1, _⟩ => rfl | ⟨2, _⟩ => rfl)

/-- The contraction's right operand at vertex `v`. -/
theorem idx_right (b : Fin 4096) (s : Fin 16) (n : Fin 64) (v : Fin 128) :
    ridx_main_v3 (ix3 b s n) v = ix3 b v n :=
  funext fun a => Fin.ext (by match a with | ⟨0, _⟩ => rfl | ⟨1, _⟩ => rfl | ⟨2, _⟩ => rfl)

/-- The reference's weight at an index is `weight` of the distance there. -/
theorem weight_apply (d : S4096x128x16.Idx → EReal) (j : S4096x128x16.Idx) :
    val_main_v2 (F := Ideal) d j = weight (d j) := rfl

/-- The reference's value before the final reshape is `garnet` of its arguments. -/
theorem before_reshape (fi : S4096x128x64.Idx → EReal) (d : S4096x128x16.Idx → EReal) :
    val_main_v11 (F := Ideal) fi d = garnet fi d := by
  funext i
  obtain ⟨b, s, n, rfl⟩ : ∃ (b : Fin 4096) (s : Fin 16) (n : Fin 64), i = ix3 b s n := ⟨i 0, i 1, i 2, eq_ix3 i⟩
  rw [val_main_v11_apply, val_main_v10_apply, val_main_v9_apply, val_main_v8_apply, val_main_v6_apply, val_main_v7_apply,
    val_main_cst_1_apply, val_main_cst_0_apply, val_main_v5_apply, val_main_v3_apply, val_main_v4_apply, val_main_cst_apply,
    garnet_ix3]
  simp only [weight_apply, idx_mean, idx_left, idx_right]
  show Ideal.div (Ideal.ofBits .f32 0x00000000#32 + _) _ * Ideal.div _ _ = _
  rw [Ideal.ofBits_zero_f32, zero_add]
  rfl

end Cert.ReferenceIdeal.RefValue

end
-- ==== Proof.BlockGarnet.lean ====
/-
  One grid point's block of the kernel's result is `garnet` of that point's input blocks.

  The body works on 64 graphs at a time. From the distance block it forms the weights `exp (0 − d·d)`, sums them over
  the vertex axis and divides by 128 (a [64,16] table of mean weights, then viewed as a [64,16,1] column and broadcast
  along the feature axis), contracts the weights with the feature block over the vertex axis, batch by batch, into a
  zero accumulator, divides that by 128, and multiplies the two. Rounding the matmul's operands to a narrower format is
  the identity on the extended reals. Read at (b, s, n) this is `garnetAt` of the two blocks: the lane sum is the sum
  over the 128 vertices of the weight at (b, v, s), the matmul entry the sum over the same vertices of weight (b, v, s)
  times feature (b, v, n).
-/
import proofs.«174832_j76690936037518_2_alg».proof.Proof.Gen.KernelIdeal.Skeleton
import proofs.«174832_j76690936037518_2_alg».proof.Proof.Garnet
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Cert.Garnet Idealize.ShloMosaic Idealize.ShloMosaic.ValueIdx

/-- The batched contraction of the body: batch axis 0 of both operands, vertex axis 1 contracted. -/
abbrev contraction : DotDims S64x128x16 S64x128x64 S64x16x64 := dot_S64x128x16_S64x128x64_S64x16x64_1_1_2_2_0_0

/-- The block of weights the body forms from a block of distances. -/
def weights (x1 : Vec Ideal S64x128x16 .f32) : FVec Ideal S64x128x16 .f32 :=
  exp (subf (broadcast S64x128x16 (Scalar.ofBits .f32 0x00000000#32)) (mulf x1 x1))

theorem weights_apply (x1 : Vec Ideal S64x128x16 .f32) (j : S64x128x16.Idx) : weights x1 j = weight (x1 j) :=
  exp_zero_sub (x1 j)

/-- A [64,16] table viewed as a [64,16,1] column and broadcast along the last axis, read at (b, s, n): the table at (b, s). -/
theorem column_apply {α : Type} (y : S64x16.Idx → α) (b : Fin 64) (s : Fin 16) (n : Fin 64) :
    broadcastTo S64x16x64 (shapeCast S64x16x1 y shapeCasts_S64x16_S64x16x1) broadcasts_S64x16x1_S64x16x64 (ix3 b s n)
      = y (ix2 b s) := by
  refine (broadcastTo_apply _ broadcasts_S64x16x1_S64x16x64 (ix3 b s n) (ix3 b s (0 : Fin 1)) (fun a => ?_)).trans ?_
  · match a with
    | ⟨0, _⟩ => show b.val = if (64 : Nat) = 1 then 0 else b.val; rw [if_neg (by decide)]
    | ⟨1, _⟩ => show s.val = if (16 : Nat) = 1 then 0 else s.val; rw [if_neg (by decide)]
    | ⟨2, _⟩ => show 0 = if (1 : Nat) = 1 then 0 else n.val; rw [if_pos rfl]
  · refine shapeCast_apply y shapeCasts_S64x16_S64x16x1 (ix3 b s (0 : Fin 1)) (ix2 b s) ?_
    rw [Shape.rowMajor_val_two, Shape.rowMajor_val_three]
    show b.val * 16 + s.val = (b.val * 16 + s.val) * 1 + 0
    omega

/-- The sum over the vertex axis of a [64,128,16] block, read at (b, s). -/
theorem vertex_sum_apply (w : FVec Ideal S64x128x16 .f32) (hφ : FKind.Formats .f32)
    (hacc : (0x00000000#32 : BitVec FTy.f32.bits) = FKind.add.neutral .f32 hφ) (b : Fin 64) (s : Fin 16) :
    multiReduction (F := Ideal) .add [1] S64x16 w 0x00000000#32 reduces_S64x128x16_S64x16 hφ hacc (ix2 b s)
      = ∑ v : Fin 128, w (ix3 b v s) := by
  refine (Ideal.multiReduction_add_single w 0x00000000#32 reduces_S64x128x16_S64x16 hφ hacc (ix2 b s)).trans ?_
  exact Finset.sum_congr rfl fun v _ => congrArg w (funext fun a => Fin.ext (by
    match a with | ⟨0, _⟩ => rfl | ⟨1, _⟩ => rfl | ⟨2, _⟩ => rfl))

theorem lhs_0 (i : S64x16x64.Idx) (q : contraction.contr.Idx) : (contraction.lhsIdx i q 0).val = (i 0).val := by
  unfold DotDims.lhsIdx
  rw [dif_pos (show (0 : Fin S64x128x16.rank) ∈ contraction.lhsBatch by decide)]
  rfl
theorem lhs_1 (i : S64x16x64.Idx) (q : contraction.contr.Idx) : (contraction.lhsIdx i q 1).val = (q ⟨0, by decide⟩).val :=
  contraction.lhsIdx_val_of_single rfl i q
theorem lhs_2 (i : S64x16x64.Idx) (q : contraction.contr.Idx) : (contraction.lhsIdx i q 2).val = (i 1).val := by
  unfold DotDims.lhsIdx
  rw [dif_neg (show ¬(2 : Fin S64x128x16.rank) ∈ contraction.lhsBatch by decide),
    dif_pos (show (2 : Fin S64x128x16.rank) ∈ contraction.lhsNonContracting by decide)]
  rfl
theorem rhs_0 (i : S64x16x64.Idx) (q : contraction.contr.Idx) : (contraction.rhsIdx i q 0).val = (i 0).val := by
  unfold DotDims.rhsIdx
  rw [dif_pos (show (0 : Fin S64x128x64.rank) ∈ contraction.rhsBatch by decide)]
  rfl
theorem rhs_1 (i : S64x16x64.Idx) (q : contraction.contr.Idx) : (contraction.rhsIdx i q 1).val = (q ⟨0, by decide⟩).val :=
  contraction.rhsIdx_val_of_single rfl i q
theorem rhs_2 (i : S64x16x64.Idx) (q : contraction.contr.Idx) : (contraction.rhsIdx i q 2).val = (i 2).val := by
  unfold DotDims.rhsIdx
  rw [dif_neg (show ¬(2 : Fin S64x128x64.rank) ∈ contraction.rhsBatch by decide),
    dif_pos (show (2 : Fin S64x128x64.rank) ∈ contraction.rhsNonContracting by decide)]
  rfl

/-- The contraction into a zero accumulator, read at (b, s, n): the sum over the vertices of left (b, v, s) times right (b, v, n). -/
theorem contraction_apply (l : FVec Ideal S64x128x16 .bf16) (r : FVec Ideal S64x128x64 .bf16) (b : Fin 64) (s : Fin 16) (n : Fin 64) :
    matmul contraction none l r (constant S64x16x64 .f32 0x00000000#32) (ix3 b s n)
      = ∑ v : Fin 128, l (ix3 b v s) * r (ix3 b v n) := by
  refine (Ideal.matmul_constant_zero_apply contraction none l r (ix3 b s n)).trans ?_
  rw [← Equiv.sum_comp (ValueIdx.contrEquiv1 contraction 128 rfl rfl).symm]
  refine Finset.sum_congr rfl fun v _ => ?_
  have hv := ValueIdx.contrEquiv1_symm_val contraction 128 rfl rfl v
  have el : contraction.lhsIdx (ix3 b s n) ((ValueIdx.contrEquiv1 contraction 128 rfl rfl).symm v) = ix3 b v s :=
    funext fun a => Fin.ext (by
      match a with
      | ⟨0, _⟩ => exact lhs_0 _ _
      | ⟨1, _⟩ => exact (lhs_1 _ _).trans hv
      | ⟨2, _⟩ => exact lhs_2 _ _)
  have er : contraction.rhsIdx (ix3 b s n) ((ValueIdx.contrEquiv1 contraction 128 rfl rfl).symm v) = ix3 b v n :=
    funext fun a => Fin.ext (by
      match a with
      | ⟨0, _⟩ => exact rhs_0 _ _
      | ⟨1, _⟩ => exact (rhs_1 _ _).trans hv
      | ⟨2, _⟩ => exact rhs_2 _ _)
  rw [el, er]

/-- The body's stored value is these operations of its two loaded blocks. -/
theorem payload_eq (x0 : Vec Ideal S64x128x64 .f32) (x1 : Vec Ideal S64x128x16 .f32) :
    k0_pay1 (F := Ideal) x1 x0
      = mulf (broadcastTo S64x16x64 (shapeCast S64x16x1
            (divf (multiReduction .add [1] S64x16 (weights x1) 0x00000000#32 reduces_S64x128x16_S64x16 (.inl rfl) rfl)
              (broadcast S64x16 (Scalar.ofBits .f32 0x43000000#32))) shapeCasts_S64x16_S64x16x1) broadcasts_S64x16x1_S64x16x64)
          (divf (matmul contraction none (truncf .bf16 (weights x1) bitsLt_bf16_f32) (truncf .bf16 x0 bitsLt_bf16_f32)
              (constant S64x16x64 .f32 0x00000000#32)) (broadcast S64x16x64 (Scalar.ofBits .f32 0x43000000#32))) := rfl

/-- The body's stored value at (b, s, n) is `garnetAt` of the two loaded blocks. -/
theorem payload_apply (x0 : Vec Ideal S64x128x64 .f32) (x1 : Vec Ideal S64x128x16 .f32) (b : Fin 64) (s : Fin 16) (n : Fin 64) :
    k0_pay1 (F := Ideal) x1 x0 (ix3 b s n) = garnetAt x0 x1 b s n := by
  rw [payload_eq]
  refine (mulf_apply _ _ (ix3 b s n)).trans ?_
  rw [column_apply]
  refine congrArg₂ (· * ·) ?_ ?_
  · refine (divf_apply _ _ (ix2 b s)).trans ?_
    refine congrArg₂ Ideal.div ?_ rfl
    refine (vertex_sum_apply (weights x1) (.inl rfl) rfl b s).trans ?_
    exact Finset.sum_congr rfl fun v _ => weights_apply x1 _
  · refine (divf_apply _ _ (ix3 b s n)).trans ?_
    refine congrArg₂ Ideal.div ?_ rfl
    refine (contraction_apply _ _ b s n).trans ?_
    exact Finset.sum_congr rfl fun v _ => congrArg₂ (· * ·) (weights_apply x1 _) rfl

end Cert.KernelIdeal.Block

end
-- ==== Proof.KernelGarnet.lean ====
/-
  The kernel's result array, and the program's result, as `garnet` of the argument arrays.

  The grid has 64 points; point `t` works on graphs 64·t … 64·t + 63, whole along the vertex, aggregator and feature
  axes. So element (b, v, ·) of an input block at point `t` is element (64·t + b, v, ·) of its array, the block the
  point writes back is `garnet` of the whole arrays restricted to those 64 graphs (an entry reads one batch row only),
  and the 64 blocks cover the result array: graph `g` lies in the block of point `g / 64`. The program then reshapes
  the [4096,16,64] array to [4096,1024].
-/
import proofs.«174832_j76690936037518_2_alg».proof.Proof.Gen.KernelIdeal.Frame
import proofs.«174832_j76690936037518_2_alg».proof.Proof.BlockGarnet
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Block Cert.Garnet Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- The three index maps at point `t`: block `t` along the batch axis, block 0 along the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The feature block at point `t` is graphs 64·t … 64·t + 63 of the feature array. -/
theorem features_block (c : Dev nD) (t : Fin cfg0.N) (b : Fin 64) (v : Fin 128) (n : Fin 64) (k : Fin 4096)
    (hk : k.val = t.val * 64 + b.val) :
    (iblk m c 0 t : Vec Ideal S64x128x64 .f32) (ix3 b v n) = (V m c main_arg0 : S4096x128x64.Idx → EReal) (ix3 k v n) := by
  obtain ⟨e0, e1, e2, -⟩ := idx_facts t
  unfold iblk
  rw [View.read_apply]
  show (V m c main_arg0 : S4096x128x64.Idx → EReal) _ = (V m c main_arg0 : S4096x128x64.Idx → EReal) _
  refine congrArg (V m c main_arg0 : S4096x128x64.Idx → EReal) (funext fun a => Fin.ext ?_)
  match a with
  | ⟨0, _⟩ => show win0_0.index t (0 : Fin 3) * 64 + 1 * b.val = k.val; rw [e0, hk]; omega
  | ⟨1, _⟩ => show win0_0.index t (1 : Fin 3) * 128 + 1 * v.val = v.val; rw [e1]; omega
  | ⟨2, _⟩ => show win0_0.index t (2 : Fin 3) * 64 + 1 * n.val = n.val; rw [e2]; omega

/-- The distance block at point `t` is graphs 64·t … 64·t + 63 of the distance array. -/
theorem distances_block (c : Dev nD) (t : Fin cfg0.N) (b : Fin 64) (v : Fin 128) (s : Fin 16) (k : Fin 4096)
    (hk : k.val = t.val * 64 + b.val) :
    (iblk m c 1 t : Vec Ideal S64x128x16 .f32) (ix3 b v s) = (V m c main_arg1 : S4096x128x16.Idx → EReal) (ix3 k v s) := by
  obtain ⟨-, -, -, e0, e1, e2, -⟩ := idx_facts t
  unfold iblk
  rw [View.read_apply]
  show (V m c main_arg1 : S4096x128x16.Idx → EReal) _ = (V m c main_arg1 : S4096x128x16.Idx → EReal) _
  refine congrArg (V m c main_arg1 : S4096x128x16.Idx → EReal) (funext fun a => Fin.ext ?_)
  match a with
  | ⟨0, _⟩ => show win0_1.index t (0 : Fin 3) * 64 + 1 * b.val = k.val; rw [e0, hk]; omega
  | ⟨1, _⟩ => show win0_1.index t (1 : Fin 3) * 128 + 1 * v.val = v.val; rw [e1]; omega
  | ⟨2, _⟩ => show win0_1.index t (2 : Fin 3) * 16 + 1 * s.val = s.val; rw [e2]; omega

/-- What point `t` writes back is block `t` of `garnet` of the arrays as the region finds them. -/
theorem flushed_eq (c : Dev nD) (t : Fin cfg0.N) :
    (dats m 0 c).flushed 2 t = ((cfg0.win 2).blk t).view.read (Elt Ideal)
      (garnet (V m c main_arg0 : S4096x128x64.Idx → EReal) (V m c main_arg1 : S4096x128x16.Idx → EReal)) := by
  show (cfg0.win 2).cut (grid0.coords t) ((dats m 0 c).after 2 t) = _
  rw [after0_2]
  unfold out0_2
  rw [View.canon_unit_zero hz]
  simp only [View.ld_unit_zero (S := S64x128x16) hz, View.ld_unit_zero (S := S64x128x64) hz]
  obtain ⟨-, -, -, -, -, -, e0, e1, e2⟩ := idx_facts t
  have hN : t.val < 64 := lt_of_lt_of_eq t.isLt N_0
  funext j
  have hj0 : (j 0).val < 64 := (j 0).isLt
  have hj1 : (j 1).val < 16 := (j 1).isLt
  have hj2 : (j 2).val < 64 := (j 2).isLt
  have hjx : (j : S64x16x64.Idx) = ix3 (⟨(j 0).val, hj0⟩ : Fin 64) (⟨(j 1).val, hj1⟩ : Fin 16) (⟨(j 2).val, hj2⟩ : Fin 64) :=
    funext fun a => Fin.ext (by match a with | ⟨0, _⟩ => rfl | ⟨1, _⟩ => rfl | ⟨2, _⟩ => rfl)
  have hk : ((⟨t.val * 64 + (j 0).val, by omega⟩ : Fin 4096)).val = t.val * 64 + ((⟨(j 0).val, hj0⟩ : Fin 64)).val := rfl
  have hemb : (((cfg0.win 2).blk t).view.emb j : S4096x16x64.Idx)
      = ix3 (⟨t.val * 64 + (j 0).val, by omega⟩ : Fin 4096) (⟨(j 1).val, hj1⟩ : Fin 16) (⟨(j 2).val, hj2⟩ : Fin 64) :=
    funext fun a => Fin.ext (by
      match a with
      | ⟨0, _⟩ => show win0_2.index t (0 : Fin 3) * 64 + 1 * (j 0).val = t.val * 64 + (j 0).val; rw [e0]; omega
      | ⟨1, _⟩ => show win0_2.index t (1 : Fin 3) * 16 + 1 * (j 1).val = (j 1).val; rw [e1]; omega
      | ⟨2, _⟩ => show win0_2.index t (2 : Fin 3) * 64 + 1 * (j 2).val = (j 2).val; rw [e2]; omega)
  show k0_pay1 (F := Ideal) (iblk m c 1 t) (iblk m c 0 t) (j : S64x16x64.Idx)
    = garnet (V m c main_arg0 : S4096x128x64.Idx → EReal) (V m c main_arg1 : S4096x128x16.Idx → EReal)
        (((cfg0.win 2).blk t).view.emb j : S4096x16x64.Idx)
  rw [hemb, garnet_ix3]
  refine (congrArg (k0_pay1 (F := Ideal) (iblk m c 1 t) (iblk m c 0 t)) hjx).trans ?_
  refine (payload_apply (iblk m c 0 t) (iblk m c 1 t) _ _ _).trans ?_
  exact garnetAt_congr _ _ _ _ _ _ (fun v n => features_block m c t _ v n _ hk) (fun v s => distances_block m c t _ v s _ hk) _ _

/-- An index of the result array is in point `t`'s block iff each coordinate is in the block's range on its axis. -/
theorem mem_blk (t : Fin cfg0.N) (i : S4096x16x64.Idx) :
    i ∈ ((cfg0.win 2).blk t).view.set ↔ ∀ a : Fin 3, win0_2.index t a * S64x16x64.size a ≤ (i a).val
      ∧ (i a).val < win0_2.index t a * S64x16x64.size a + S64x16x64.size a := by
  show i ∈ ((View.whole main_v0).slice (win0_2.rect t)).set ↔ _
  rw [View.set_slice_whole, Rect.mem_set_unit]
  exact Iff.rfl

/-- Every index of the result array lies in the block of the point its graph belongs to. -/
theorem covered (i : S4096x16x64.Idx) :
    ∃ t : Fin cfg0.N, (cfg0.win 2).flush t = true ∧ i ∈ ((cfg0.win 2).blk t).view.set := by
  have hN : cfg0.N = 64 := N_0
  have h0 : (i 0).val < 4096 := (i 0).isLt
  have h1 : (i 1).val < 16 := (i 1).isLt
  have h2 : (i 2).val < 64 := (i 2).isLt
  obtain ⟨t, ht⟩ : ∃ t : Fin cfg0.N, t.val = (i 0).val / 64 := ⟨⟨(i 0).val / 64, by rw [hN]; omega⟩, rfl⟩
  obtain ⟨-, -, -, -, -, -, e0, e1, e2⟩ := idx_facts t
  refine ⟨t, flush0_2 t, ?_⟩
  rw [mem_blk]
  intro a
  match a with
  | ⟨0, _⟩ => show win0_2.index t (0 : Fin 3) * 64 ≤ (i 0).val ∧ (i 0).val < win0_2.index t (0 : Fin 3) * 64 + 64; rw [e0, ht]; omega
  | ⟨1, _⟩ => show win0_2.index t (1 : Fin 3) * 16 ≤ (i 1).val ∧ (i 1).val < win0_2.index t (1 : Fin 3) * 16 + 16; rw [e1]; omega
  | ⟨2, _⟩ => show win0_2.index t (2 : Fin 3) * 64 ≤ (i 2).val ∧ (i 2).val < win0_2.index t (2 : Fin 3) * 64 + 64; rw [e2]; omega

/-- The result array after the run is `garnet` of the arrays as the region finds them. -/
theorem final (c : Dev nD) : (dats m 0 c).arrAt 2 cfg0.N
    = garnet (V m c main_arg0 : S4096x128x64.Idx → EReal) (V m c main_arg1 : S4096x128x16.Idx → EReal) :=
  (dats m 0 c).arrAt_eq_of_cover 2 _ (fun t _ => flushed_eq m c t) covered

/-- The program's result: the host reshape of the result array. -/
theorem tail_eq (c : Dev nD) :
    Pipeline.afterTail₀ cfgs (dats m) 0 (V0 m) [hostOps1] c main_v1
      = shapeCast S4096x1024 (garnet (m ((c : Thread nD τ).loc main_arg0) : S4096x128x64.Idx → EReal)
          (m ((c : Thread nD τ).loc main_arg1) : S4096x128x16.Idx → EReal)) shapeCasts_S4096x16x64_S4096x1024 := by
  unfold Pipeline.afterTail₀
  show StableHlo.after hostOps1 _ (Proc.devRef .tc main_v1) = _
  after_results
  have harr : Pipeline.withArrays (cfgs 0).spec c (V0 m c) (fun w => (dats m 0 c).arrAt w (cfgs 0).N) (Proc.devRef .tc main_v0)
      = garnet (m ((c : Thread nD τ).loc main_arg0) : S4096x128x64.Idx → EReal)
          (m ((c : Thread nD τ).loc main_arg1) : S4096x128x16.Idx → EReal) :=
    (Pipeline.withArrays_arr spec0 launch0.win.arr_inj c _ _ 2).trans (final m c)
  exact congrArg (fun X : S4096x16x64.Idx → EReal => shapeCast S4096x1024 X shapeCasts_S4096x16x64_S4096x1024) harr

/-- The run, read: every weakly fair execution ends with the result at the reshape of `garnet` of the arguments, and
    the arguments as they were. -/
theorem run : θ_run defs (onTc (τ := τ) (main (F := Ideal))) ⟨m, fun _ => 0, ρ⟩ fun r => ∀ c : Dev nD,
      r.2.mem ((c.tc : Thread nD τ).loc main_v1)
        = shapeCast S4096x1024 (garnet (m ((c.tc : Thread nD τ).loc main_arg0) : S4096x128x64.Idx → EReal)
            (m ((c.tc : Thread nD τ).loc main_arg1) : S4096x128x16.Idx → EReal)) shapeCasts_S4096x16x64_S4096x1024
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Whole

end
-- ==== Proof.lean ====
/-
  A distance-weighted aggregation over 4096 graphs of 128 vertices: with weights `w = exp (−d²)` of the vertex-to-aggregator
  distances, the result at (graph b, aggregator s, feature n) is

      (∑ᵥ w[b,v,s]) / 128  ·  (∑ᵥ w[b,v,s] · fi[b,v,n]) / 128,

  laid out as a [4096, 16·64] matrix.

  The kernel computes this 64 graphs at a time: per grid point it forms the weights as `exp (0 − d·d)`, takes their sum
  over the vertex axis, contracts them with the features over the same axis into a zero accumulator (the operands
  rounded to a narrower format first, which is the identity on the extended reals), divides both by 128 and multiplies;
  the host reshapes the [4096,16,64] result. The reference does the same on whole arrays with `exp (−(d·d))`, a batched
  `dot_general`, a `reduce add` from zero, and the same reshape.

  On the extended reals the two are one function (`Cert.Garnet.garnet`, then the shared reshape): `0 − x = −x`, adding the
  zero the host's sum starts from changes nothing, the lane sum and the matmul entry are the same finite sums as the
  host's, and the two divisors are the same word. None of this needs the inputs to be finite, so the precondition is
  never opened. The kernel reads only its own 64 graphs for each block it writes, and the 64 blocks tile the result.

  The frames of the two kernel programs are the generated ones; the reference's frame is its run with the result dropped;
  the idealization rewrote nothing, so there is nothing to preserve.
-/
import proofs.«174832_j76690936037518_2_alg».proof.Defs
import proofs.«174832_j76690936037518_2_alg».proof.Proof.Gen.Kernel
import proofs.«174832_j76690936037518_2_alg».proof.Proof.Gen.Kernel.Skeleton
import proofs.«174832_j76690936037518_2_alg».proof.Proof.Gen.Kernel.Launch
import proofs.«174832_j76690936037518_2_alg».proof.Proof.Gen.Kernel.Points
import proofs.«174832_j76690936037518_2_alg».proof.Proof.Gen.Kernel.Frame
import proofs.«174832_j76690936037518_2_alg».proof.Proof.Gen.KernelIdeal
import proofs.«174832_j76690936037518_2_alg».proof.Proof.Gen.KernelIdeal.Skeleton
import proofs.«174832_j76690936037518_2_alg».proof.Proof.Gen.KernelIdeal.Launch
import proofs.«174832_j76690936037518_2_alg».proof.Proof.Gen.KernelIdeal.Points
import proofs.«174832_j76690936037518_2_alg».proof.Proof.Gen.KernelIdeal.Frame
import proofs.«174832_j76690936037518_2_alg».proof.Proof.Gen.ReferenceIdeal
import proofs.«174832_j76690936037518_2_alg».proof.Proof.Gen.Pre_finite_inputs
import proofs.«174832_j76690936037518_2_alg».proof.Proof.Gen.ReferenceIdeal.Run
import proofs.«174832_j76690936037518_2_alg».proof.Proof.Gen.ReferenceIdeal.Read
import proofs.«174832_j76690936037518_2_alg».proof.Proof.RefGarnet
import proofs.«174832_j76690936037518_2_alg».proof.Proof.KernelGarnet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference terminates with its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the reshape of `garnet` of the arguments; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq]
  unfold Cert.ReferenceIdeal.Read.val_main_v12
  rw [Cert.ReferenceIdeal.RefValue.before_reshape, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
